-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128 .f32) (main_arg12 : FVec F S128x128 .f32) (main_arg13 : FVec F S128x128 .f32) (main_arg14 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x128 .f32) (main_arg14 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S2048x128 : Shape := ⟨2, ![2048, 128]⟩
abbrev S2048x256 : Shape := ⟨2, ![2048, 256]⟩
abbrev S2048x512 : Shape := ⟨2, ![2048, 512]⟩

abbrev nBuf : Space → Nat
  | .hbm => 23
  | .vmem => 12
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x512, .f32⟩
  | .hbm, ⟨16, _⟩ => ⟨S128x512, .f32⟩
  | .hbm, ⟨17, _⟩ => ⟨S256x512, .f32⟩
  | .hbm, ⟨18, _⟩ => ⟨S256x512, .bf16⟩
  | .hbm, ⟨19, _⟩ => ⟨S512, .f32⟩
  | .hbm, ⟨20, _⟩ => ⟨S1x512, .f32⟩
  | .hbm, ⟨21, _⟩ => ⟨S131072x128, .f32⟩
  | .hbm, ⟨22, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x512, .bf16⟩
  | .local _ .vmem, ⟨7, _⟩ => ⟨S1x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S128x128_S128x128_S128x128_S128x128_S128x512_d1 : Shape.Concatenates [S128x128, S128x128, S128x128, S128x128] S128x512 1
  concatenates_S128x512_S128x512_S256x512_d0 : Shape.Concatenates [S128x512, S128x512] S256x512 0
  bitsLt_bf16_f32 : FTy.bits .bf16 < FTy.bits .f32
  concatenates_S128_S128_S128_S128_S512_d0 : Shape.Concatenates [S128, S128, S128, S128] S512 0
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  concatenates_S2048x128_S2048x128_S2048x256_d1 : Shape.Concatenates [S2048x128, S2048x128] S2048x256 1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S131072x128.size a
  hwx0_5 : ∀ i : grid0.Coords, EltTy.bits .f32 = 32 ∨ (Rect.block (s := S131072x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S131072x128, .f32⟩
  | .hbm, ⟨16, _⟩ => ⟨S131072x128, .f32⟩
  | .hbm, ⟨17, _⟩ => ⟨S131072x128, .f32⟩
  | .hbm, ⟨18, _⟩ => ⟨S1x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S_, .f32⟩
  | .hbm, ⟨24, _⟩ => ⟨S131072x128, .f32⟩
  | .hbm, ⟨25, _⟩ => ⟨S131072x128, .f32⟩
  | .hbm, ⟨26, _⟩ => ⟨S_, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S1x128, .f32⟩
  | .hbm, ⟨33, _⟩ => ⟨S131072x128, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S131072x128, .f32⟩
  | .hbm, ⟨46, _⟩ => ⟨S1x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S_, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S1x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S131072x128, .f32⟩
  | .hbm, ⟨68, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.RegionBits.lean ====
/-
  The launch of the LSTM cell's one region, for the program `Kernel`, at any float instance.

  @main first builds, by six host operations, the fused weight matrix (the four input-side matrices side by side
  over the four hidden-side matrices, 256 × 512) and the fused bias row (1 × 512); then one region of 64 grid
  points runs the cell on 2048 rows at a time.  At point `t` the body is handed rows `2048·t … 2048·t+2047` of
  x, h and c (windows 0, 1, 2, fetched at every point), the whole fused matrix and bias row (windows 3 and 4,
  fetched once and left in place), and two output buffers (windows 5 and 6: the new hidden and cell rows), which
  it overwrites whole and the pipeline writes back at every point.

  Stated here: what the region finds in every buffer (`entry`), what a window's block is at a point (`blockAt`),
  what the body leaves in its two output buffers as a function of its five input blocks (`leftH`, `leftC`), the
  body's triple, the proof data of the pipeline, and the run: every weakly fair execution terminates with the two
  result arrays at what the library assembles from the blocks written back, and every argument array unchanged.
-/
import proofs.«106874_j47399259079383_2_alg».proof.Proof.Gen.Kernel.Launch
import proofs.«106874_j47399259079383_2_alg».proof.Proof.Gen.Kernel.Skeleton
import proofs.«106874_j47399259079383_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory after the six host operations. -/
abbrev entry (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The host operations write the six intermediate buffers and nothing else: any other buffer is found as launched. -/
theorem entry_of_not_written (c : Dev nD) (b : Ref sig .tc)
    (h0 : b ≠ main_v0) (h1 : b ≠ main_v1) (h2 : b ≠ main_v2) (h3 : b ≠ main_v3) (h4 : b ≠ main_v4) (h5 : b ≠ main_v5) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## A window's block at a point -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body leaves in its output buffers -/

abbrev rowsBox : Rect S2048x128 := Rect.unit (s := S2048x128) ![0, 0] S2048x128.size inb_S2048x128_S2048x128_0_0
abbrev weightBox : Rect S256x512 := Rect.unit (s := S256x512) ![0, 0] S256x512.size inb_S256x512_S256x512_0_0
abbrev biasBox : Rect S1x512 := Rect.unit (s := S1x512) ![0, 0] S1x512.size inb_S1x512_S1x512_0_0

/-- The new hidden rows: the body's one store into window 5's buffer, over its loads of the five input blocks. -/
def leftH (x h cp : Vec F S2048x128 .f32) (wu : Vec F S256x512 .bf16) (b : Vec F S1x512 .f32) : Vec F S2048x128 .f32 :=
  View.canon [⟨rowsBox, k0_pay3 (View.ld x rowsBox) (View.ld h rowsBox) (View.ld cp rowsBox) (View.ld wu weightBox) (View.ld b biasBox)⟩]

/-- The new cell rows: the body's one store into window 6's buffer. -/
def leftC (x h cp : Vec F S2048x128 .f32) (wu : Vec F S256x512 .bf16) (b : Vec F S1x512 .f32) : Vec F S2048x128 .f32 :=
  View.canon [⟨rowsBox, k0_pay2 (View.ld x rowsBox) (View.ld h rowsBox) (View.ld cp rowsBox) (View.ld wu weightBox) (View.ld b biasBox)⟩]

/-- One store through the whole 2048 × 128 box covers the buffer. -/
theorem rows_covered (p0 : Vec F S2048x128 .f32) (y : S2048x128.Idx) :
    ∃ pc ∈ ([⟨rowsBox, p0⟩] : List (View.Piece (Elt F) S2048x128 .f32)), y ∈ pc.1.set :=
  View.cover_of_tiled [⟨rowsBox, p0⟩] S2048x128.size (by rfl) y

/-! ## The body's triple -/

set_option maxHeartbeats 1000000 in
/-- The body, on whole buffers holding `x h cp wu b` and two output buffers holding anything, runs without a fault
    and returns the inputs as they were and the outputs at `leftH`, `leftC` of the inputs. (It also loads each
    output buffer before storing into it; the loaded values are not used.) -/
theorem body_triple (c : Dev nD) (E : Set ℕ) (i : grid0.Coords)
    (a1 : Memref sig .tc .vmem S2048x128 .f32) (ha1 : a1.IsWhole) (a2 : Memref sig .tc .vmem S2048x128 .f32) (ha2 : a2.IsWhole)
    (a3 : Memref sig .tc .vmem S2048x128 .f32) (ha3 : a3.IsWhole) (a4 : Memref sig .tc .vmem S256x512 .bf16) (ha4 : a4.IsWhole)
    (a5 : Memref sig .tc .vmem S1x512 .f32) (ha5 : a5.IsWhole) (a6 : Memref sig .tc .vmem S2048x128 .f32) (ha6 : a6.IsWhole)
    (a7 : Memref sig .tc .vmem S2048x128 .f32) (ha7 : a7.IsWhole)
    (x h cp : Vec F S2048x128 .f32) (wu : Vec F S256x512 .bf16) (b : Vec F S1x512 .f32) (K : PUnit → sProp 𝕄) :
    iprop(owns (c : Thread nD τ) a1 fullShare x ∗ owns (c : Thread nD τ) a2 fullShare h ∗ owns (c : Thread nD τ) a3 fullShare cp
        ∗ owns (c : Thread nD τ) a4 fullShare wu ∗ owns (c : Thread nD τ) a5 fullShare b
        ∗ (∃ d, owns (c : Thread nD τ) a6 fullShare d) ∗ (∃ d, owns (c : Thread nD τ) a7 fullShare d)
        ∗ (iprop(owns (c : Thread nD τ) a1 fullShare x ∗ owns (c : Thread nD τ) a2 fullShare h ∗ owns (c : Thread nD τ) a3 fullShare cp
            ∗ owns (c : Thread nD τ) a4 fullShare wu ∗ owns (c : Thread nD τ) a5 fullShare b
            ∗ owns (c : Thread nD τ) a6 fullShare (leftH x h cp wu b) ∗ owns (c : Thread nD τ) a7 fullShare (leftC x h cp wu b)) -∗ K ⟨⟩))
      ⊢ wp frame (wpE (defs₀ (F := F)) Variants.none c none) E (cc0__lstm_kernel i a1 ha1 a2 ha2 a3 ha3 a4 ha4 a5 ha5 a6 ha6 a7 ha7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_covered _)
  iexists _; isplitr
  swap; · iexact H7
  ipureintro
  exact View.read_writes_eq_canon _ _ _ (rows_covered _)

/-! ## The pipeline's proof data -/

/-- On core `c`: the arrays as the region finds them; after the body at point `t` every input buffer still at
    its block and the two output buffers at `leftH`, `leftC` of the input blocks; nothing of the kernel's own to
    keep between points; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => leftH (blockAt m c 0 t) (blockAt m c 1 t) (blockAt m c 2 t) (blockAt m c 3 t) (blockAt m c 4 t)
    | ⟨6, _⟩ => leftC (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = leftH (blockAt m c 0 t) (blockAt m c 1 t) (blockAt m c 2 t) (blockAt m c 3 t) (blockAt m c 4 t) := by dsimp only [dats]
theorem after_6 (c : Dev nD) (t : Fin cfg0.N) : (dats m 0 c).after 6 t
    = leftC (blockAt m c 0 t) (blockAt m c 1 t) (blockAt m c 2 t) (blockAt m c 3 t) (blockAt m c 4 t) := by dsimp only [dats]

/-- An input window's current buffer holds its block at every point, whether the pipeline fetched it there or left
    the previous point's copy in place (then the block index has not moved); the body leaves the input blocks alone. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [arrays_eq]; try rfl) t d).trans
    (by unfold Dat.fetched Dat.blockOf blockAt; rw [arrays_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [arrays_eq]; try rfl) t d).trans
    (by unfold Dat.fetched Dat.blockOf blockAt; rw [arrays_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [arrays_eq]; try rfl) t d).trans
    (by unfold Dat.fetched Dat.blockOf blockAt; rw [arrays_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [arrays_eq]; try rfl) t d).trans
    (by unfold Dat.fetched Dat.blockOf blockAt; rw [arrays_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [arrays_eq]; try rfl) t d).trans
    (by unfold Dat.fetched Dat.blockOf blockAt; rw [arrays_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its input buffers hold their blocks, so the triple applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end every array a window stages
    holds what the library assembles from the proof data, and every other unscoped buffer what the region found. -/
theorem run_region : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := arrays_eq m) (hΦ := fun _ _ => rfl)

/-- The fifteen argument arrays at the end of such a run are as launched: x, h and c are staged by input windows,
    which are never written back; the twelve weight and bias arrays are staged by no window and written by no
    host operation. -/
theorem arguments_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  have staged : ∀ (w : Fin cfg0.W) (hw : (cfg0.win w).isOut = false),
      (dats m 0 c).arrAt w cfg0.N = entry m c (Pipeline.arrRef spec0 w) :=
    fun w hw => ((dats m 0 c).arrAt_in w hw _).trans (arrays_eq m c w)
  have rest : ∀ (b : Ref sig .tc) (hs : b.isScoped = false) (ha : ∀ w, (spec0 w).arr.view.ref ≠ b)
      (h0 : b ≠ main_v0) (h1 : b ≠ main_v1) (h2 : b ≠ main_v2) (h3 : b ≠ main_v3) (h4 : b ≠ main_v4) (h5 : b ≠ main_v5),
      r.2.mem ((c.tc : Thread nD τ).loc b) = m ((c.tc : Thread nD τ).loc b) :=
    fun b hs ha h0 h1 h2 h3 h4 h5 =>
      ((h c).2 b (Pipeline.mem_restRefs_of b hs ha)).trans (entry_of_not_written m c b h0 h1 h2 h3 h4 h5)
  refine ⟨?_, ?_, ?_, ?_, ?_, ?_, ?_, ?_, ?_, ?_, ?_, ?_, ?_, ?_, ?_⟩
  · exact ((h c).1 0).trans ((staged 0 rfl).trans
      (entry_of_not_written m c main_arg0 (by decide) (by decide) (by decide) (by decide) (by decide) (by decide)))
  · exact ((h c).1 1).trans ((staged 1 rfl).trans
      (entry_of_not_written m c main_arg1 (by decide) (by decide) (by decide) (by decide) (by decide) (by decide)))
  · exact ((h c).1 2).trans ((staged 2 rfl).trans
      (entry_of_not_written m c main_arg2 (by decide) (by decide) (by decide) (by decide) (by decide) (by decide)))
  · exact rest main_arg3 (by decide) (by decide) (by decide) (by decide) (by decide) (by decide) (by decide) (by decide)
  · exact rest main_arg4 (by decide) (by decide) (by decide) (by decide) (by decide) (by decide) (by decide) (by decide)
  · exact rest main_arg5 (by decide) (by decide) (by decide) (by decide) (by decide) (by decide) (by decide) (by decide)
  · exact rest main_arg6 (by decide) (by decide) (by decide) (by decide) (by decide) (by decide) (by decide) (by decide)
  · exact rest main_arg7 (by decide) (by decide) (by decide) (by decide) (by decide) (by decide) (by decide) (by decide)
  · exact rest main_arg8 (by decide) (by decide) (by decide) (by decide) (by decide) (by decide) (by decide) (by decide)
  · exact rest main_arg9 (by decide) (by decide) (by decide) (by decide) (by decide) (by decide) (by decide) (by decide)
  · exact rest main_arg10 (by decide) (by decide) (by decide) (by decide) (by decide) (by decide) (by decide) (by decide)
  · exact rest main_arg11 (by decide) (by decide) (by decide) (by decide) (by decide) (by decide) (by decide) (by decide)
  · exact rest main_arg12 (by decide) (by decide) (by decide) (by decide) (by decide) (by decide) (by decide) (by decide)
  · exact rest main_arg13 (by decide) (by decide) (by decide) (by decide) (by decide) (by decide) (by decide) (by decide)
  · exact rest main_arg14 (by decide) (by decide) (by decide) (by decide) (by decide) (by decide) (by decide) (by decide)

/-- The run with both result arrays named and the arguments unchanged. -/
theorem run_named : θ_run defs (onTc (τ := τ) (main (F := F))) ⟨m, fun _ => 0, ρ⟩ (fun r => ∀ c : Dev nD,
      (r.2.mem ((c.tc : Thread nD τ).loc main_v6_0) = (dats m 0 c).arrAt 5 cfg0.N
        ∧ r.2.mem ((c.tc : Thread nD τ).loc main_v6_1) = (dats m 0 c).arrAt 6 cfg0.N)
      ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14))) :=
  (θ_run defs _ _).mono (fun r h c => ⟨⟨(h c).1 5, (h c).1 6⟩, arguments_kept m r h c⟩) (run_region m ρ)

/-- The frame: the program runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) :=
  (θ_run defs _ _).mono (fun r h c => (h c).2) (run_named m ρ)

end Cert.Kernel.Cell

end
-- ==== Proof.RegionIdeal.lean ====
/-
  The launch of the LSTM cell's one region, for the program `KernelIdeal`, at any float instance.

  @main first builds, by six host operations, the fused weight matrix (the four input-side matrices side by side
  over the four hidden-side matrices, 256 × 512) and the fused bias row (1 × 512); then one region of 64 grid
  points runs the cell on 2048 rows at a time.  At point `t` the body is handed rows `2048·t … 2048·t+2047` of
  x, h and c (windows 0, 1, 2, fetched at every point), the whole fused matrix and bias row (windows 3 and 4,
  fetched once and left in place), and two output buffers (windows 5 and 6: the new hidden and cell rows), which
  it overwrites whole and the pipeline writes back at every point.

  Stated here: what the region finds in every buffer (`entry`), what a window's block is at a point (`blockAt`),
  what the body leaves in its two output buffers as a function of its five input blocks (`leftH`, `leftC`), the
  body's triple, the proof data of the pipeline, and the run: every weakly fair execution terminates with the two
  result arrays at what the library assembles from the blocks written back, and every argument array unchanged.
-/
import proofs.«106874_j47399259079383_2_alg».proof.Proof.Gen.KernelIdeal.Launch
import proofs.«106874_j47399259079383_2_alg».proof.Proof.Gen.KernelIdeal.Skeleton
import proofs.«106874_j47399259079383_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: the launch memory after the six host operations. -/
abbrev entry (c : Dev nD) (b : Ref sig .tc) : Buf (Elt F) ((c : Thread nD τ).loc b) :=
  StableHlo.after hostOps0 (fun b => m (c, b)) b

/-- None of the six host operations allocates. -/
theorem hostOps0_fresh : (hostOps0 : List (HloOp τ sig (Elt F))).Forall fun op => op.fresh = ∅ := by
  simp only [List.Forall]; repeat' constructor

/-- @main is the six host operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The host operations write the six intermediate buffers and nothing else: any other buffer is found as launched. -/
theorem entry_of_not_written (c : Dev nD) (b : Ref sig .tc)
    (h0 : b ≠ main_v0) (h1 : b ≠ main_v1) (h2 : b ≠ main_v2) (h3 : b ≠ main_v3) (h4 : b ≠ main_v4) (h5 : b ≠ main_v5) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-! ## A window's block at a point -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body leaves in its output buffers -/

abbrev rowsBox : Rect S2048x128 := Rect.unit (s := S2048x128) ![0, 0] S2048x128.size inb_S2048x128_S2048x128_0_0
abbrev weightBox : Rect S256x512 := Rect.unit (s := S256x512) ![0, 0] S256x512.size inb_S256x512_S256x512_0_0
abbrev biasBox : Rect S1x512 := Rect.unit (s := S1x512) ![0, 0] S1x512.size inb_S1x512_S1x512_0_0

/-- The new hidden rows: the body's one store into window 5's buffer, over its loads of the five input blocks. -/
def leftH (x h cp : Vec F S2048x128 .f32) (wu : Vec F S256x512 .bf16) (b : Vec F S1x512 .f32) : Vec F S2048x128 .f32 :=
  View.canon [⟨rowsBox, k0_pay3 (View.ld x rowsBox) (View.ld h rowsBox) (View.ld cp rowsBox) (View.ld wu weightBox) (View.ld b biasBox)⟩]

/-- The new cell rows: the body's one store into window 6's buffer. -/
def leftC (x h cp : Vec F S2048x128 .f32) (wu : Vec F S256x512 .bf16) (b : Vec F S1x512 .f32) : Vec F S2048x128 .f32 :=
  View.canon [⟨rowsBox, k0_pay2 (View.ld x rowsBox) (View.ld h rowsBox) (View.ld cp rowsBox) (View.ld wu weightBox) (View.ld b biasBox)⟩]

/-- One store through the whole 2048 × 128 box covers the buffer. -/
theorem rows_covered (p0 : Vec F S2048x128 .f32) (y : S2048x128.Idx) :
    ∃ pc ∈ ([⟨rowsBox, p0⟩] : List (View.Piece (Elt F) S2048x128 .f32)), y ∈ pc.1.set :=
  View.cover_of_tiled [⟨rowsBox, p0⟩] S2048x128.size (by rfl) y

/-! ## The body's triple -/

set_option maxHeartbeats 1000000 in
/-- The body, on whole buffers holding `x h cp wu b` and two output buffers holding anything, runs without a fault
    and returns the inputs as they were and the outputs at `leftH`, `leftC` of the inputs. (It also loads each
    output buffer before storing into it; the loaded values are not used.) -/
theorem body_triple (c : Dev nD) (E : Set ℕ) (i : grid0.Coords)
    (a1 : Memref sig .tc .vmem S2048x128 .f32) (ha1 : a1.IsWhole) (a2 : Memref sig .tc .vmem S2048x128 .f32) (ha2 : a2.IsWhole)
    (a3 : Memref sig .tc .vmem S2048x128 .f32) (ha3 : a3.IsWhole) (a4 : Memref sig .tc .vmem S256x512 .bf16) (ha4 : a4.IsWhole)
    (a5 : Memref sig .tc .vmem S1x512 .f32) (ha5 : a5.IsWhole) (a6 : Memref sig .tc .vmem S2048x128 .f32) (ha6 : a6.IsWhole)
    (a7 : Memref sig .tc .vmem S2048x128 .f32) (ha7 : a7.IsWhole)
    (x h cp : Vec F S2048x128 .f32) (wu : Vec F S256x512 .bf16) (b : Vec F S1x512 .f32) (K : PUnit → sProp 𝕄) :
    iprop(owns (c : Thread nD τ) a1 fullShare x ∗ owns (c : Thread nD τ) a2 fullShare h ∗ owns (c : Thread nD τ) a3 fullShare cp
        ∗ owns (c : Thread nD τ) a4 fullShare wu ∗ owns (c : Thread nD τ) a5 fullShare b
        ∗ (∃ d, owns (c : Thread nD τ) a6 fullShare d) ∗ (∃ d, owns (c : Thread nD τ) a7 fullShare d)
        ∗ (iprop(owns (c : Thread nD τ) a1 fullShare x ∗ owns (c : Thread nD τ) a2 fullShare h ∗ owns (c : Thread nD τ) a3 fullShare cp
            ∗ owns (c : Thread nD τ) a4 fullShare wu ∗ owns (c : Thread nD τ) a5 fullShare b
            ∗ owns (c : Thread nD τ) a6 fullShare (leftH x h cp wu b) ∗ owns (c : Thread nD τ) a7 fullShare (leftC x h cp wu b)) -∗ K ⟨⟩))
      ⊢ wp frame (wpE (defs₀ (F := F)) Variants.none c none) E (cc0__lstm_kernel i a1 ha1 a2 ha2 a3 ha3 a4 ha4 a5 ha5 a6 ha6 a7 ha7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (rows_covered _)
  iexists _; isplitr
  swap; · iexact H7
  ipureintro
  exact View.read_writes_eq_canon _ _ _ (rows_covered _)

/-! ## The pipeline's proof data -/

/-- On core `c`: the arrays as the region finds them; after the body at point `t` every input buffer still at
    its block and the two output buffers at `leftH`, `leftC` of the input blocks; nothing of the kernel's own to
    keep between points; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => leftH (blockAt m c 0 t) (blockAt m c 1 t) (blockAt m c 2 t) (blockAt m c 3 t) (blockAt m c 4 t)
    | ⟨6, _⟩ => leftC (blockAt m c 0 t) (blockAt m c 1 t) (blockAt m c 2 t) (blockAt m c 3 t) (blockAt m c 4 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = leftH (blockAt m c 0 t) (blockAt m c 1 t) (blockAt m c 2 t) (blockAt m c 3 t) (blockAt m c 4 t) := by dsimp only [dats]
theorem after_6 (c : Dev nD) (t : Fin cfg0.N) : (dats m 0 c).after 6 t
    = leftC (blockAt m c 0 t) (blockAt m c 1 t) (blockAt m c 2 t) (blockAt m c 3 t) (blockAt m c 4 t) := by dsimp only [dats]

/-- An input window's current buffer holds its block at every point, whether the pipeline fetched it there or left
    the previous point's copy in place (then the block index has not moved); the body leaves the input blocks alone. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [arrays_eq]; try rfl) t d).trans
    (by unfold Dat.fetched Dat.blockOf blockAt; rw [arrays_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [arrays_eq]; try rfl) t d).trans
    (by unfold Dat.fetched Dat.blockOf blockAt; rw [arrays_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [arrays_eq]; try rfl) t d).trans
    (by unfold Dat.fetched Dat.blockOf blockAt; rw [arrays_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [arrays_eq]; try rfl) t d).trans
    (by unfold Dat.fetched Dat.blockOf blockAt; rw [arrays_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [arrays_eq]; try rfl) t d).trans
    (by unfold Dat.fetched Dat.blockOf blockAt; rw [arrays_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: its input buffers hold their blocks, so the triple applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _
    (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates without a fault; at the end every array a window stages
    holds what the library assembles from the proof data, and every other unscoped buffer what the region found. -/
theorem run_region : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_region m Variants.none) (hA := arrays_eq m) (hΦ := fun _ _ => rfl)

/-- The fifteen argument arrays at the end of such a run are as launched: x, h and c are staged by input windows,
    which are never written back; the twelve weight and bias arrays are staged by no window and written by no
    host operation. -/
theorem arguments_kept (r : PUnit × MemSt nD τ sig (Elt F)) (h : Pipeline.FramePost cfgs (dats m) 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  have staged : ∀ (w : Fin cfg0.W) (hw : (cfg0.win w).isOut = false),
      (dats m 0 c).arrAt w cfg0.N = entry m c (Pipeline.arrRef spec0 w) :=
    fun w hw => ((dats m 0 c).arrAt_in w hw _).trans (arrays_eq m c w)
  have rest : ∀ (b : Ref sig .tc) (hs : b.isScoped = false) (ha : ∀ w, (spec0 w).arr.view.ref ≠ b)
      (h0 : b ≠ main_v0) (h1 : b ≠ main_v1) (h2 : b ≠ main_v2) (h3 : b ≠ main_v3) (h4 : b ≠ main_v4) (h5 : b ≠ main_v5),
      r.2.mem ((c.tc : Thread nD τ).loc b) = m ((c.tc : Thread nD τ).loc b) :=
    fun b hs ha h0 h1 h2 h3 h4 h5 =>
      ((h c).2 b (Pipeline.mem_restRefs_of b hs ha)).trans (entry_of_not_written m c b h0 h1 h2 h3 h4 h5)
  refine ⟨?_, ?_, ?_, ?_, ?_, ?_, ?_, ?_, ?_, ?_, ?_, ?_, ?_, ?_, ?_⟩
  · exact ((h c).1 0).trans ((staged 0 rfl).trans
      (entry_of_not_written m c main_arg0 (by decide) (by decide) (by decide) (by decide) (by decide) (by decide)))
  · exact ((h c).1 1).trans ((staged 1 rfl).trans
      (entry_of_not_written m c main_arg1 (by decide) (by decide) (by decide) (by decide) (by decide) (by decide)))
  · exact ((h c).1 2).trans ((staged 2 rfl).trans
      (entry_of_not_written m c main_arg2 (by decide) (by decide) (by decide) (by decide) (by decide) (by decide)))
  · exact rest main_arg3 (by decide) (by decide) (by decide) (by decide) (by decide) (by decide) (by decide) (by decide)
  · exact rest main_arg4 (by decide) (by decide) (by decide) (by decide) (by decide) (by decide) (by decide) (by decide)
  · exact rest main_arg5 (by decide) (by decide) (by decide) (by decide) (by decide) (by decide) (by decide) (by decide)
  · exact rest main_arg6 (by decide) (by decide) (by decide) (by decide) (by decide) (by decide) (by decide) (by decide)
  · exact rest main_arg7 (by decide) (by decide) (by decide) (by decide) (by decide) (by decide) (by decide) (by decide)
  · exact rest main_arg8 (by decide) (by decide) (by decide) (by decide) (by decide) (by decide) (by decide) (by decide)
  · exact rest main_arg9 (by decide) (by decide) (by decide) (by decide) (by decide) (by decide) (by decide) (by decide)
  · exact rest main_arg10 (by decide) (by decide) (by decide) (by decide) (by decide) (by decide) (by decide) (by decide)
  · exact rest main_arg11 (by decide) (by decide) (by decide) (by decide) (by decide) (by decide) (by decide) (by decide)
  · exact rest main_arg12 (by decide) (by decide) (by decide) (by decide) (by decide) (by decide) (by decide) (by decide)
  · exact rest main_arg13 (by decide) (by decide) (by decide) (by decide) (by decide) (by decide) (by decide) (by decide)
  · exact rest main_arg14 (by decide) (by decide) (by decide) (by decide) (by decide) (by decide) (by decide) (by decide)

/-- The run with both result arrays named and the arguments unchanged. -/
theorem run_named : θ_run defs (onTc (τ := τ) (main (F := F))) ⟨m, fun _ => 0, ρ⟩ (fun r => ∀ c : Dev nD,
      (r.2.mem ((c.tc : Thread nD τ).loc main_v6_0) = (dats m 0 c).arrAt 5 cfg0.N
        ∧ r.2.mem ((c.tc : Thread nD τ).loc main_v6_1) = (dats m 0 c).arrAt 6 cfg0.N)
      ∧ (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14))) :=
  (θ_run defs _ _).mono (fun r h c => ⟨⟨(h c).1 5, (h c).1 6⟩, arguments_kept m r h c⟩) (run_region m ρ)

/-- The frame: the program runs to the end, faults nowhere, and leaves its fifteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)) :=
  (θ_run defs _ _).mono (fun r h c => (h c).2) (run_named m ρ)

end Cert.KernelIdeal.Cell

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.Spec.lean ====
/-
  The LSTM cell as one function of its fifteen argument arrays, entry by entry, on the extended reals.

  For a batch row r and a hidden unit j, a gate's pre-activation is
      pre W U b (r, j) = Σ_{k<128} x(r,k)·W(k,j) + Σ_{k<128} h(r,k)·U(k,j) + b(j),
  the new cell state is   c'(r,j) = σ(pre_f)·c(r,j) + σ(pre_i)·tanh(pre_g),
  and the new hidden state h'(r,j) = σ(pre_o)·tanh(c'(r,j)),
  with σ(s) = 1 / (1 + e^(−s)) and tanh the extended reals' (each total, with its limits at ±∞).

  Also here: a sum over 256 terms is the sum of its first 128 and its last 128 terms — the one law that joins a
  product against the two weight matrices stacked on top of each other to the sum of the two separate products.  It
  holds in any commutative monoid, so no finiteness of the entries is needed.
-/
import Idealize.ShloMosaic.PureOps.Ideal
import Idealize.ShloMosaic.Lib.ValueIdx

noncomputable section

open scoped BigOperators

namespace Cert.LstmSpec

open Idealize.ShloMosaic Idealize.ShloMosaic.ValueIdx

abbrev Rows : Shape := ⟨2, ![131072, 128]⟩
abbrev Sq : Shape := ⟨2, ![128, 128]⟩
abbrev Row1 : Shape := ⟨1, ![128]⟩

/-- The fifteen argument arrays: x, h, c (one row per batch element), and per gate (input, forget, candidate,
    output) the input-side matrix, the hidden-side matrix and the bias. -/
structure Args where
  x : Rows.Idx → EReal
  h : Rows.Idx → EReal
  c : Rows.Idx → EReal
  Wi : Sq.Idx → EReal
  Ui : Sq.Idx → EReal
  bi : Row1.Idx → EReal
  Wf : Sq.Idx → EReal
  Uf : Sq.Idx → EReal
  bf : Row1.Idx → EReal
  Wg : Sq.Idx → EReal
  Ug : Sq.Idx → EReal
  bg : Row1.Idx → EReal
  Wo : Sq.Idx → EReal
  Uo : Sq.Idx → EReal
  bo : Row1.Idx → EReal

/-- A gate's pre-activation at row `r`, unit `j`. -/
def pre (x h : Rows.Idx → EReal) (W U : Sq.Idx → EReal) (b : Row1.Idx → EReal) (r : Fin 131072) (j : Fin 128) : EReal :=
  (∑ k : Fin 128, x (ix2 r k) * W (ix2 k j) + ∑ k : Fin 128, h (ix2 r k) * U (ix2 k j)) + b (ix1 j)

/-- The new cell state at row `r`, unit `j`. -/
def newC (A : Args) (r : Fin 131072) (j : Fin 128) : EReal :=
  Ideal.logistic (pre A.x A.h A.Wf A.Uf A.bf r j) * A.c (ix2 r j)
    + Ideal.logistic (pre A.x A.h A.Wi A.Ui A.bi r j) * Ideal.tanh (pre A.x A.h A.Wg A.Ug A.bg r j)

/-- The new hidden state at row `r`, unit `j`. -/
def newH (A : Args) (r : Fin 131072) (j : Fin 128) : EReal :=
  Ideal.logistic (pre A.x A.h A.Wo A.Uo A.bo r j) * Ideal.tanh (newC A r j)

/-- The new cell state as an array. -/
def cellArray (A : Args) : Rows.Idx → EReal := fun i => newC A ⟨(i 0).val, idx2_lt0 i⟩ ⟨(i 1).val, idx2_lt1 i⟩
/-- The new hidden state as an array. -/
def hiddenArray (A : Args) : Rows.Idx → EReal := fun i => newH A ⟨(i 0).val, idx2_lt0 i⟩ ⟨(i 1).val, idx2_lt1 i⟩

theorem cellArray_apply (A : Args) (r : Fin 131072) (j : Fin 128) : cellArray A (ix2 r j) = newC A r j := rfl
theorem hiddenArray_apply (A : Args) (r : Fin 131072) (j : Fin 128) : hiddenArray A (ix2 r j) = newH A r j := rfl

/-- A sum of 256 terms is the sum of the first 128 plus the sum of the last 128. -/
theorem sum_256 (f : Fin 256 → EReal) :
    ∑ k : Fin 256, f k = ∑ k : Fin 128, f ⟨k.val, by omega⟩ + ∑ k : Fin 128, f ⟨128 + k.val, by omega⟩ :=
  Fin.sum_univ_add (a := 128) (b := 128) f

end Cert.LstmSpec

end
-- ==== Proof.CellBody.lean ====
/-
  The cell body's arithmetic read at one entry, on the extended reals.

  On a block of 2048 rows the body multiplies the rows of x and h laid side by side (2048 × 256) by the fused weight
  matrix (256 × 512) and adds the fused bias row.  At row p and fused column q that is
      Σ_{k<128} x(p,k)·wu(k,q) + Σ_{k<128} h(p,k)·wu(128+k,q) + b(0,q):
  the product's sum over 256 terms splits into its first and last 128, the first reading x and the last reading h.
  The four gates are the column ranges [0,128), [128,256), [256,384), [384,512) of that 2048 × 512 array; the new cell
  state is σ(forget)·c + σ(input)·tanh(candidate) and the new hidden state σ(output)·tanh(new cell state).
-/
import proofs.«106874_j47399259079383_2_alg».proof.Proof.Gen.KernelIdeal.Skeleton
import proofs.«106874_j47399259079383_2_alg».proof.Proof.LibPlainDot
import proofs.«106874_j47399259079383_2_alg».proof.Proof.Spec
import Idealize.ShloMosaic.Lib.Pipeline.Value
import Idealize.ShloMosaic.Lib.ValueLayout

noncomputable section

open scoped BigOperators

namespace Cert.KernelIdeal.CellBody

open Cert.KernelIdeal Cert.KernelIdeal.Gen Cert.LstmSpec
open Idealize.ShloMosaic Idealize.ShloMosaic.ValueIdx

/-- The product's dimension numbers: rows of the left operand against columns of the right one. -/
abbrev D := dot_S2048x256_S256x512_S2048x512_1_0_0_1_n_n

theorem D_rows : ∀ (j : S2048x512.Idx) (k : D.contr.Idx), (D.lhsIdx j k 0).val = (j 0).val := fun j k => by
  unfold DotDims.lhsIdx
  rw [dif_neg (show ¬(0 : Fin S2048x256.rank) ∈ D.lhsBatch by decide), dif_pos (show (0 : Fin S2048x256.rank) ∈ D.lhsNonContracting by decide)]
  rfl

theorem D_cols : ∀ (j : S2048x512.Idx) (k : D.contr.Idx), (D.rhsIdx j k 1).val = (j 1).val := fun j k => by
  unfold DotDims.rhsIdx
  rw [dif_neg (show ¬(1 : Fin S256x512.rank) ∈ D.rhsBatch by decide), dif_pos (show (1 : Fin S256x512.rank) ∈ D.rhsNonContracting by decide)]
  rfl

variable (x h cp : Vec Ideal S2048x128 .f32) (wu : Vec Ideal S256x512 .bf16) (b : Vec Ideal S1x512 .f32)

/-- The four pre-activations, fused: row `p`, fused column `q`. -/
def fusedPre (p : Fin 2048) (q : Fin 512) : EReal :=
  (∑ k : Fin 128, x (ix2 p k) * wu (ix2 ⟨k.val, by omega⟩ q) + ∑ k : Fin 128, h (ix2 p k) * wu (ix2 ⟨128 + k.val, by omega⟩ q))
    + b (ix2 ⟨0, by omega⟩ q)

/-- The body's product plus bias is `fusedPre`, entry by entry. -/
theorem pay1_at (p : Fin 2048) (q : Fin 512) :
    k0_pay1 (F := Ideal) x h wu b (ix2 p q) = fusedPre x h wu b p q := by
  unfold k0_pay1 fusedPre
  show FloatOps.matmul D none _ _ (constant S2048x512 .f32 0x00000000#32) (ix2 p q) + _ = _
  refine congrArg₂ (· + ·) ?_ ?_
  · refine (Cert.LibPlainDot.matmul_zero_apply D rfl rfl rfl rfl D_rows D_cols none _ _ p q).trans ?_
    rw [sum_256]
    refine congrArg₂ (· + ·) (Finset.sum_congr rfl fun k _ => ?_) (Finset.sum_congr rfl fun k _ => ?_)
    · rw [shapeCast_self]
      refine congrArg₂ (· * ·) ?_ rfl
      exact concatenate_pair_apply_left (1 : Fin 2) (truncf (F := Ideal) .bf16 x bitsLt_bf16_f32) (truncf (F := Ideal) .bf16 h bitsLt_bf16_f32) _ (ix2 p (⟨k.val, by omega⟩ : Fin 256)) rfl (ix2 p k)
        (fun a => by match a with | ⟨0, _⟩ => rfl | ⟨1, _⟩ => rfl)
    · rw [shapeCast_self]
      refine congrArg₂ (· * ·) ?_ rfl
      exact concatenate_pair_apply_right (1 : Fin 2) (truncf (F := Ideal) .bf16 x bitsLt_bf16_f32) (truncf (F := Ideal) .bf16 h bitsLt_bf16_f32) _ (ix2 p (⟨128 + k.val, by omega⟩ : Fin 256)) rfl rfl (ix2 p k)
        (fun a ha => by match a with | ⟨0, _⟩ => rfl | ⟨1, _⟩ => exact absurd rfl ha)
        (by show k.val + 128 = 128 + k.val; omega)
  · refine (broadcastTo_apply _ _ (ix2 p q) (ix2 ⟨0, by omega⟩ q) (fun a => by
      match a with
      | ⟨0, _⟩ => show (0 : Nat) = if (1 : Nat) = 1 then 0 else _; rw [if_pos rfl]
      | ⟨1, _⟩ => show q.val = if (512 : Nat) = 1 then 0 else _; rw [if_neg (by decide)]; rfl)).trans ?_
    rw [shapeCast_self]

/-- Gate g of the fused pre-activations is the column range starting at 128·g. -/
theorem gate_slice_0 (p : Fin 2048) (j : Fin 128) :
    extractStridedSlice S2048x128 ![0, 0] (k0_pay1 (F := Ideal) x h wu b) slices_S2048x512_o0_0_S2048x128 (ix2 p j)
      = fusedPre x h wu b p ⟨0 + j.val, by omega⟩ :=
  (slice2_axis1_apply 0 (k0_pay1 (F := Ideal) x h wu b) slices_S2048x512_o0_0_S2048x128 p j ⟨0 + j.val, by omega⟩ rfl).trans
    (pay1_at x h wu b p _)

theorem gate_slice_1 (p : Fin 2048) (j : Fin 128) :
    extractStridedSlice S2048x128 ![0, 128] (k0_pay1 (F := Ideal) x h wu b) slices_S2048x512_o0_128_S2048x128 (ix2 p j)
      = fusedPre x h wu b p ⟨128 + j.val, by omega⟩ :=
  (slice2_axis1_apply 128 (k0_pay1 (F := Ideal) x h wu b) slices_S2048x512_o0_128_S2048x128 p j ⟨128 + j.val, by omega⟩ rfl).trans
    (pay1_at x h wu b p _)

theorem gate_slice_2 (p : Fin 2048) (j : Fin 128) :
    extractStridedSlice S2048x128 ![0, 256] (k0_pay1 (F := Ideal) x h wu b) slices_S2048x512_o0_256_S2048x128 (ix2 p j)
      = fusedPre x h wu b p ⟨256 + j.val, by omega⟩ :=
  (slice2_axis1_apply 256 (k0_pay1 (F := Ideal) x h wu b) slices_S2048x512_o0_256_S2048x128 p j ⟨256 + j.val, by omega⟩ rfl).trans
    (pay1_at x h wu b p _)

theorem gate_slice_3 (p : Fin 2048) (j : Fin 128) :
    extractStridedSlice S2048x128 ![0, 384] (k0_pay1 (F := Ideal) x h wu b) slices_S2048x512_o0_384_S2048x128 (ix2 p j)
      = fusedPre x h wu b p ⟨384 + j.val, by omega⟩ :=
  (slice2_axis1_apply 384 (k0_pay1 (F := Ideal) x h wu b) slices_S2048x512_o0_384_S2048x128 p j ⟨384 + j.val, by omega⟩ rfl).trans
    (pay1_at x h wu b p _)

/-- The new cell rows: σ(forget)·c + σ(input)·tanh(candidate). -/
theorem pay2_at (p : Fin 2048) (j : Fin 128) :
    k0_pay2 (F := Ideal) x h cp wu b (ix2 p j)
      = Ideal.logistic (fusedPre x h wu b p ⟨128 + j.val, by omega⟩) * cp (ix2 p j)
        + Ideal.logistic (fusedPre x h wu b p ⟨0 + j.val, by omega⟩) * Ideal.tanh (fusedPre x h wu b p ⟨256 + j.val, by omega⟩) := by
  unfold k0_pay2
  show Ideal.logistic (extractStridedSlice S2048x128 ![0, 128] (k0_pay1 (F := Ideal) x h wu b) slices_S2048x512_o0_128_S2048x128 (ix2 p j)) * cp (ix2 p j)
      + Ideal.logistic (extractStridedSlice S2048x128 ![0, 0] (k0_pay1 (F := Ideal) x h wu b) slices_S2048x512_o0_0_S2048x128 (ix2 p j))
        * Ideal.tanh (extractStridedSlice S2048x128 ![0, 256] (k0_pay1 (F := Ideal) x h wu b) slices_S2048x512_o0_256_S2048x128 (ix2 p j)) = _
  rw [gate_slice_1, gate_slice_0, gate_slice_2]

/-- The new hidden rows: σ(output)·tanh(new cell state). -/
theorem pay3_at (p : Fin 2048) (j : Fin 128) :
    k0_pay3 (F := Ideal) x h cp wu b (ix2 p j)
      = Ideal.logistic (fusedPre x h wu b p ⟨384 + j.val, by omega⟩) * Ideal.tanh (k0_pay2 (F := Ideal) x h cp wu b (ix2 p j)) := by
  unfold k0_pay3
  show Ideal.logistic (extractStridedSlice S2048x128 ![0, 384] (k0_pay1 (F := Ideal) x h wu b) slices_S2048x512_o0_384_S2048x128 (ix2 p j))
      * Ideal.tanh (k0_pay2 (F := Ideal) x h cp wu b (ix2 p j)) = _
  rw [gate_slice_3]

end Cert.KernelIdeal.CellBody

end
-- ==== Proof.Fused.lean ====
/-
  The fused weight matrix and the fused bias row, read at an entry.

  Four 128 × 128 matrices laid side by side form a 128 × 512 matrix whose column 128·g + j is column j of the g-th;
  two 128 × 512 matrices one above the other form a 256 × 512 matrix whose row k is row k of the upper one and whose
  row 128 + k is row k of the lower one; four rows of 128 entries laid end to end and given a leading axis of
  extent one form a 1 × 512 row whose entry 128·g + j is entry j of the g-th.
-/
import proofs.«106874_j47399259079383_2_alg».proof.Proof.Gen.KernelIdeal
import Idealize.ShloMosaic.Lib.Pipeline.Value
import Idealize.ShloMosaic.Lib.ValueIdx

noncomputable section

namespace Cert.KernelIdeal.Fused

open Cert.KernelIdeal Cert.KernelIdeal.Gen
open Idealize.ShloMosaic Idealize.ShloMosaic.ValueIdx

variable {α : Type}

/-! ## Side by side -/

theorem beside_0 (M0 M1 M2 M3 : S128x128.Idx → α) (k j : Fin 128) :
    concatenate S128x512 1 [⟨S128x128, M0⟩, ⟨S128x128, M1⟩, ⟨S128x128, M2⟩, ⟨S128x128, M3⟩]
      concatenates_S128x128_S128x128_S128x128_S128x128_S128x512_d1 (ix2 k (⟨0 + j.val, by omega⟩ : Fin 512)) = M0 (ix2 k j) :=
  concatenate_apply_piece (1 : Fin 2) _ _ (ix2 k (⟨0 + j.val, by omega⟩ : Fin 512)) 0 (by simp) S128x128 M0 rfl rfl 0 (by rfl) (ix2 k j)
    (fun a ha => by match a with | ⟨0, _⟩ => rfl | ⟨1, _⟩ => exact absurd rfl ha) rfl

theorem beside_1 (M0 M1 M2 M3 : S128x128.Idx → α) (k j : Fin 128) :
    concatenate S128x512 1 [⟨S128x128, M0⟩, ⟨S128x128, M1⟩, ⟨S128x128, M2⟩, ⟨S128x128, M3⟩]
      concatenates_S128x128_S128x128_S128x128_S128x128_S128x512_d1 (ix2 k (⟨128 + j.val, by omega⟩ : Fin 512)) = M1 (ix2 k j) :=
  concatenate_apply_piece (1 : Fin 2) _ _ (ix2 k (⟨128 + j.val, by omega⟩ : Fin 512)) 1 (by simp) S128x128 M1 rfl rfl 128 (by rfl) (ix2 k j)
    (fun a ha => by match a with | ⟨0, _⟩ => rfl | ⟨1, _⟩ => exact absurd rfl ha) rfl

theorem beside_2 (M0 M1 M2 M3 : S128x128.Idx → α) (k j : Fin 128) :
    concatenate S128x512 1 [⟨S128x128, M0⟩, ⟨S128x128, M1⟩, ⟨S128x128, M2⟩, ⟨S128x128, M3⟩]
      concatenates_S128x128_S128x128_S128x128_S128x128_S128x512_d1 (ix2 k (⟨256 + j.val, by omega⟩ : Fin 512)) = M2 (ix2 k j) :=
  concatenate_apply_piece (1 : Fin 2) _ _ (ix2 k (⟨256 + j.val, by omega⟩ : Fin 512)) 2 (by simp) S128x128 M2 rfl rfl 256 (by rfl) (ix2 k j)
    (fun a ha => by match a with | ⟨0, _⟩ => rfl | ⟨1, _⟩ => exact absurd rfl ha) rfl

theorem beside_3 (M0 M1 M2 M3 : S128x128.Idx → α) (k j : Fin 128) :
    concatenate S128x512 1 [⟨S128x128, M0⟩, ⟨S128x128, M1⟩, ⟨S128x128, M2⟩, ⟨S128x128, M3⟩]
      concatenates_S128x128_S128x128_S128x128_S128x128_S128x512_d1 (ix2 k (⟨384 + j.val, by omega⟩ : Fin 512)) = M3 (ix2 k j) :=
  concatenate_apply_piece (1 : Fin 2) _ _ (ix2 k (⟨384 + j.val, by omega⟩ : Fin 512)) 3 (by simp) S128x128 M3 rfl rfl 384 (by rfl) (ix2 k j)
    (fun a ha => by match a with | ⟨0, _⟩ => rfl | ⟨1, _⟩ => exact absurd rfl ha) rfl

/-! ## One above the other -/

theorem upper (T B : S128x512.Idx → α) (k : Fin 128) (q : Fin 512) :
    concatenate S256x512 0 [⟨S128x512, T⟩, ⟨S128x512, B⟩] concatenates_S128x512_S128x512_S256x512_d0
      (ix2 (⟨k.val, by omega⟩ : Fin 256) q) = T (ix2 k q) :=
  concatenate_pair_apply_left (0 : Fin 2) T B _ (ix2 (⟨k.val, by omega⟩ : Fin 256) q) rfl (ix2 k q)
    (fun a => by match a with | ⟨0, _⟩ => rfl | ⟨1, _⟩ => rfl)

theorem lower (T B : S128x512.Idx → α) (k : Fin 128) (q : Fin 512) :
    concatenate S256x512 0 [⟨S128x512, T⟩, ⟨S128x512, B⟩] concatenates_S128x512_S128x512_S256x512_d0
      (ix2 (⟨128 + k.val, by omega⟩ : Fin 256) q) = B (ix2 k q) :=
  concatenate_pair_apply_right (0 : Fin 2) T B _ (ix2 (⟨128 + k.val, by omega⟩ : Fin 256) q) rfl rfl (ix2 k q)
    (fun a ha => by match a with | ⟨0, _⟩ => exact absurd rfl ha | ⟨1, _⟩ => rfl)
    (by show k.val + 128 = 128 + k.val; omega)

/-! ## End to end, with a leading unit axis -/

theorem bias_0 (b0 b1 b2 b3 : S128.Idx → α) (j : Fin 128) :
    shapeCast S1x512 (concatenate S512 0 [⟨S128, b0⟩, ⟨S128, b1⟩, ⟨S128, b2⟩, ⟨S128, b3⟩] concatenates_S128_S128_S128_S128_S512_d0)
      shapeCasts_S512_S1x512 (ix2 (⟨0, by omega⟩ : Fin 1) (⟨0 + j.val, by omega⟩ : Fin 512)) = b0 (ix1 j) :=
  (shapeCast_apply _ shapeCasts_S512_S1x512 (ix2 (⟨0, by omega⟩ : Fin 1) (⟨0 + j.val, by omega⟩ : Fin 512))
      (ix1 (⟨0 + j.val, by omega⟩ : Fin 512)) (by
        rw [Shape.rowMajor_val_one, Shape.rowMajor_val_two]
        show 0 + j.val = 0 * 512 + (0 + j.val)
        omega)).trans
    (concatenate_apply_piece (0 : Fin 1) _ _ (ix1 (⟨0 + j.val, by omega⟩ : Fin 512)) 0 (by simp) S128 b0 rfl rfl 0 (by rfl) (ix1 j)
      (fun a ha => by match a with | ⟨0, _⟩ => exact absurd rfl ha) rfl)

theorem bias_1 (b0 b1 b2 b3 : S128.Idx → α) (j : Fin 128) :
    shapeCast S1x512 (concatenate S512 0 [⟨S128, b0⟩, ⟨S128, b1⟩, ⟨S128, b2⟩, ⟨S128, b3⟩] concatenates_S128_S128_S128_S128_S512_d0)
      shapeCasts_S512_S1x512 (ix2 (⟨0, by omega⟩ : Fin 1) (⟨128 + j.val, by omega⟩ : Fin 512)) = b1 (ix1 j) :=
  (shapeCast_apply _ shapeCasts_S512_S1x512 (ix2 (⟨0, by omega⟩ : Fin 1) (⟨128 + j.val, by omega⟩ : Fin 512))
      (ix1 (⟨128 + j.val, by omega⟩ : Fin 512)) (by
        rw [Shape.rowMajor_val_one, Shape.rowMajor_val_two]
        show 128 + j.val = 0 * 512 + (128 + j.val)
        omega)).trans
    (concatenate_apply_piece (0 : Fin 1) _ _ (ix1 (⟨128 + j.val, by omega⟩ : Fin 512)) 1 (by simp) S128 b1 rfl rfl 128 (by rfl) (ix1 j)
      (fun a ha => by match a with | ⟨0, _⟩ => exact absurd rfl ha) rfl)

theorem bias_2 (b0 b1 b2 b3 : S128.Idx → α) (j : Fin 128) :
    shapeCast S1x512 (concatenate S512 0 [⟨S128, b0⟩, ⟨S128, b1⟩, ⟨S128, b2⟩, ⟨S128, b3⟩] concatenates_S128_S128_S128_S128_S512_d0)
      shapeCasts_S512_S1x512 (ix2 (⟨0, by omega⟩ : Fin 1) (⟨256 + j.val, by omega⟩ : Fin 512)) = b2 (ix1 j) :=
  (shapeCast_apply _ shapeCasts_S512_S1x512 (ix2 (⟨0, by omega⟩ : Fin 1) (⟨256 + j.val, by omega⟩ : Fin 512))
      (ix1 (⟨256 + j.val, by omega⟩ : Fin 512)) (by
        rw [Shape.rowMajor_val_one, Shape.rowMajor_val_two]
        show 256 + j.val = 0 * 512 + (256 + j.val)
        omega)).trans
    (concatenate_apply_piece (0 : Fin 1) _ _ (ix1 (⟨256 + j.val, by omega⟩ : Fin 512)) 2 (by simp) S128 b2 rfl rfl 256 (by rfl) (ix1 j)
      (fun a ha => by match a with | ⟨0, _⟩ => exact absurd rfl ha) rfl)

theorem bias_3 (b0 b1 b2 b3 : S128.Idx → α) (j : Fin 128) :
    shapeCast S1x512 (concatenate S512 0 [⟨S128, b0⟩, ⟨S128, b1⟩, ⟨S128, b2⟩, ⟨S128, b3⟩] concatenates_S128_S128_S128_S128_S512_d0)
      shapeCasts_S512_S1x512 (ix2 (⟨0, by omega⟩ : Fin 1) (⟨384 + j.val, by omega⟩ : Fin 512)) = b3 (ix1 j) :=
  (shapeCast_apply _ shapeCasts_S512_S1x512 (ix2 (⟨0, by omega⟩ : Fin 1) (⟨384 + j.val, by omega⟩ : Fin 512))
      (ix1 (⟨384 + j.val, by omega⟩ : Fin 512)) (by
        rw [Shape.rowMajor_val_one, Shape.rowMajor_val_two]
        show 384 + j.val = 0 * 512 + (384 + j.val)
        omega)).trans
    (concatenate_apply_piece (0 : Fin 1) _ _ (ix1 (⟨384 + j.val, by omega⟩ : Fin 512)) 3 (by simp) S128 b3 rfl rfl 384 (by rfl) (ix1 j)
      (fun a ha => by match a with | ⟨0, _⟩ => exact absurd rfl ha) rfl)

end Cert.KernelIdeal.Fused

end
-- ==== Proof.KernelValue.lean ====
/-
  The kernel's two result arrays are the LSTM cell of the specification.

  The region's run leaves each result array assembled from the 64 blocks the grid points wrote back.  Point `t`
  writes rows 2048·t … 2048·t + 2047; what it writes at local row p is the body's arithmetic on row p of its blocks
  of x, h and c — which are rows 2048·t + p of the arrays — and on the fused weights and bias, which are the twelve
  weight and bias arguments laid out by the host operations before the region.  Reading the fused layout back gate
  by gate turns the body's one 256-term product into the specification's two 128-term products per gate.  The
  64 blocks tile the 131072 rows, so each result array is the specification's array.
-/
import proofs.«106874_j47399259079383_2_alg».proof.Proof.RegionIdeal
import proofs.«106874_j47399259079383_2_alg».proof.Proof.CellBody
import proofs.«106874_j47399259079383_2_alg».proof.Proof.Fused
import proofs.«106874_j47399259079383_2_alg».proof.Proof.Spec
import Idealize.ShloMosaic.Lib.Pipeline.Value
import Idealize.ShloMosaic.Lib.StableHlo.Run

set_option maxRecDepth 16384

noncomputable section

open scoped BigOperators

namespace Cert.KernelIdeal.CellValue

open Cert.KernelIdeal Cert.KernelIdeal.Gen Cert.KernelIdeal.Cell Cert.KernelIdeal.CellBody Cert.LstmSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The fifteen argument arrays as launched on core `c`. -/
def args (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-! ## What the host operations leave for the region -/

theorem entry_x (c : Dev nD) : entry m c main_arg0 = m ((c : Thread nD τ).loc main_arg0) := entry_of_not_written m c main_arg0 (by decide) (by decide) (by decide) (by decide) (by decide) (by decide)
theorem entry_h (c : Dev nD) : entry m c main_arg1 = m ((c : Thread nD τ).loc main_arg1) := entry_of_not_written m c main_arg1 (by decide) (by decide) (by decide) (by decide) (by decide) (by decide)
theorem entry_c (c : Dev nD) : entry m c main_arg2 = m ((c : Thread nD τ).loc main_arg2) := entry_of_not_written m c main_arg2 (by decide) (by decide) (by decide) (by decide) (by decide) (by decide)

/-- The fused weights: the four input-side matrices side by side, over the four hidden-side matrices side by side. -/
theorem entry_wu (c : Dev nD) : (entry m c main_v3 : S256x512.Idx → EReal) =
    truncf (F := Ideal) .bf16 (concatenate S256x512 0
      [⟨S128x512, concatenate S128x512 1 [⟨S128x128, m ((c : Thread nD τ).loc main_arg3)⟩, ⟨S128x128, m ((c : Thread nD τ).loc main_arg6)⟩,
          ⟨S128x128, m ((c : Thread nD τ).loc main_arg9)⟩, ⟨S128x128, m ((c : Thread nD τ).loc main_arg12)⟩]
          concatenates_S128x128_S128x128_S128x128_S128x128_S128x512_d1⟩,
       ⟨S128x512, concatenate S128x512 1 [⟨S128x128, m ((c : Thread nD τ).loc main_arg4)⟩, ⟨S128x128, m ((c : Thread nD τ).loc main_arg7)⟩,
          ⟨S128x128, m ((c : Thread nD τ).loc main_arg10)⟩, ⟨S128x128, m ((c : Thread nD τ).loc main_arg13)⟩]
          concatenates_S128x128_S128x128_S128x128_S128x128_S128x512_d1⟩]
      concatenates_S128x512_S128x512_S256x512_d0) bitsLt_bf16_f32 := by
  dsimp only [entry, hostOps0]
  after_results
  rfl

/-- The fused bias: the four bias rows end to end, as a 1 × 512 row. -/
theorem entry_bias (c : Dev nD) : (entry m c main_v5 : S1x512.Idx → EReal) =
    shapeCast S1x512 (concatenate S512 0 [⟨S128, m ((c : Thread nD τ).loc main_arg5)⟩, ⟨S128, m ((c : Thread nD τ).loc main_arg8)⟩,
          ⟨S128, m ((c : Thread nD τ).loc main_arg11)⟩, ⟨S128, m ((c : Thread nD τ).loc main_arg14)⟩]
          concatenates_S128_S128_S128_S128_S512_d0) shapeCasts_S512_S1x512 := by
  dsimp only [entry, hostOps0]
  after_results
  rfl

/-- The fused layout read back gate by gate (a change of float format is the identity on the extended reals). -/
theorem wu_upper_i (c : Dev nD) (k j : Fin 128) :
    (entry m c main_v3 : S256x512.Idx → EReal) (ix2 (⟨k.val, by omega⟩ : Fin 256) (⟨0 + j.val, by omega⟩ : Fin 512)) = (args m c).Wi (ix2 k j) :=
  (congrFun (entry_wu m c) _).trans ((Fused.upper _ _ k _).trans (Fused.beside_0 _ _ _ _ k j))
theorem wu_lower_i (c : Dev nD) (k j : Fin 128) :
    (entry m c main_v3 : S256x512.Idx → EReal) (ix2 (⟨128 + k.val, by omega⟩ : Fin 256) (⟨0 + j.val, by omega⟩ : Fin 512)) = (args m c).Ui (ix2 k j) :=
  (congrFun (entry_wu m c) _).trans ((Fused.lower _ _ k _).trans (Fused.beside_0 _ _ _ _ k j))
theorem bias_i (c : Dev nD) (j : Fin 128) :
    (entry m c main_v5 : S1x512.Idx → EReal) (ix2 (⟨0, by omega⟩ : Fin 1) (⟨0 + j.val, by omega⟩ : Fin 512)) = (args m c).bi (ix1 j) :=
  (congrFun (entry_bias m c) _).trans (Fused.bias_0 _ _ _ _ j)

theorem wu_upper_f (c : Dev nD) (k j : Fin 128) :
    (entry m c main_v3 : S256x512.Idx → EReal) (ix2 (⟨k.val, by omega⟩ : Fin 256) (⟨128 + j.val, by omega⟩ : Fin 512)) = (args m c).Wf (ix2 k j) :=
  (congrFun (entry_wu m c) _).trans ((Fused.upper _ _ k _).trans (Fused.beside_1 _ _ _ _ k j))
theorem wu_lower_f (c : Dev nD) (k j : Fin 128) :
    (entry m c main_v3 : S256x512.Idx → EReal) (ix2 (⟨128 + k.val, by omega⟩ : Fin 256) (⟨128 + j.val, by omega⟩ : Fin 512)) = (args m c).Uf (ix2 k j) :=
  (congrFun (entry_wu m c) _).trans ((Fused.lower _ _ k _).trans (Fused.beside_1 _ _ _ _ k j))
theorem bias_f (c : Dev nD) (j : Fin 128) :
    (entry m c main_v5 : S1x512.Idx → EReal) (ix2 (⟨0, by omega⟩ : Fin 1) (⟨128 + j.val, by omega⟩ : Fin 512)) = (args m c).bf (ix1 j) :=
  (congrFun (entry_bias m c) _).trans (Fused.bias_1 _ _ _ _ j)

theorem wu_upper_g (c : Dev nD) (k j : Fin 128) :
    (entry m c main_v3 : S256x512.Idx → EReal) (ix2 (⟨k.val, by omega⟩ : Fin 256) (⟨256 + j.val, by omega⟩ : Fin 512)) = (args m c).Wg (ix2 k j) :=
  (congrFun (entry_wu m c) _).trans ((Fused.upper _ _ k _).trans (Fused.beside_2 _ _ _ _ k j))
theorem wu_lower_g (c : Dev nD) (k j : Fin 128) :
    (entry m c main_v3 : S256x512.Idx → EReal) (ix2 (⟨128 + k.val, by omega⟩ : Fin 256) (⟨256 + j.val, by omega⟩ : Fin 512)) = (args m c).Ug (ix2 k j) :=
  (congrFun (entry_wu m c) _).trans ((Fused.lower _ _ k _).trans (Fused.beside_2 _ _ _ _ k j))
theorem bias_g (c : Dev nD) (j : Fin 128) :
    (entry m c main_v5 : S1x512.Idx → EReal) (ix2 (⟨0, by omega⟩ : Fin 1) (⟨256 + j.val, by omega⟩ : Fin 512)) = (args m c).bg (ix1 j) :=
  (congrFun (entry_bias m c) _).trans (Fused.bias_2 _ _ _ _ j)

theorem wu_upper_o (c : Dev nD) (k j : Fin 128) :
    (entry m c main_v3 : S256x512.Idx → EReal) (ix2 (⟨k.val, by omega⟩ : Fin 256) (⟨384 + j.val, by omega⟩ : Fin 512)) = (args m c).Wo (ix2 k j) :=
  (congrFun (entry_wu m c) _).trans ((Fused.upper _ _ k _).trans (Fused.beside_3 _ _ _ _ k j))
theorem wu_lower_o (c : Dev nD) (k j : Fin 128) :
    (entry m c main_v3 : S256x512.Idx → EReal) (ix2 (⟨128 + k.val, by omega⟩ : Fin 256) (⟨384 + j.val, by omega⟩ : Fin 512)) = (args m c).Uo (ix2 k j) :=
  (congrFun (entry_wu m c) _).trans ((Fused.lower _ _ k _).trans (Fused.beside_3 _ _ _ _ k j))
theorem bias_o (c : Dev nD) (j : Fin 128) :
    (entry m c main_v5 : S1x512.Idx → EReal) (ix2 (⟨0, by omega⟩ : Fin 1) (⟨384 + j.val, by omega⟩ : Fin 512)) = (args m c).bo (ix1 j) :=
  (congrFun (entry_bias m c) _).trans (Fused.bias_3 _ _ _ _ j)

/-! ## The windows' blocks, entry by entry -/

/-- Where the pipeline puts each window's block at point `t`: the row windows at block row `t`, the weight and
    bias windows at the one block there is. -/
theorem row_index_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem row_index_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem row_index_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem row_index_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem row_index_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem whole_index_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem whole_index_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Row `p` of point `t`'s block is row `2048·t + p` of the array. -/
def rowOf (t : Fin cfg0.N) (p : Fin 2048) : Fin 131072 :=
  ⟨t.val * 2048 + p.val, by have ht : t.val < 64 := lt_of_lt_of_eq t.isLt N_0; have := p.isLt; omega⟩

theorem rows_emb_0 (t : Fin cfg0.N) (p : Fin 2048) (k : Fin 128) :
    ((cfg0.win 0).blk t).view.emb (ix2 p k) = ix2 (rowOf t p) k := by
  obtain ⟨e0, e1⟩ := row_index_0 t
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

theorem rows_emb_1 (t : Fin cfg0.N) (p : Fin 2048) (k : Fin 128) :
    ((cfg0.win 1).blk t).view.emb (ix2 p k) = ix2 (rowOf t p) k := by
  obtain ⟨e0, e1⟩ := row_index_1 t
  funext a; apply Fin.ext
  match a with
  | ⟨0, _⟩ => show win0_1.index t (0 : Fin 2) * 2048 + 1 * p.val = t.val * 2048 + p.val; rw [e0]; omega
  | ⟨1, _⟩ => show win0_1.index t (1 : Fin 2) * 128 + 1 * k.val = k.val; rw [e1]; omega

theorem rows_emb_2 (t : Fin cfg0.N) (p : Fin 2048) (k : Fin 128) :
    ((cfg0.win 2).blk t).view.emb (ix2 p k) = ix2 (rowOf t p) k := by
  obtain ⟨e0, e1⟩ := row_index_2 t
  funext a; apply Fin.ext
  match a with
  | ⟨0, _⟩ => show win0_2.index t (0 : Fin 2) * 2048 + 1 * p.val = t.val * 2048 + p.val; rw [e0]; omega
  | ⟨1, _⟩ => show win0_2.index t (1 : Fin 2) * 128 + 1 * k.val = k.val; rw [e1]; omega

theorem rows_emb_5 (t : Fin cfg0.N) (p : Fin 2048) (k : Fin 128) :
    ((cfg0.win 5).blk t).view.emb (ix2 p k) = ix2 (rowOf t p) k := by
  obtain ⟨e0, e1⟩ := row_index_5 t
  funext a; apply Fin.ext
  match a with
  | ⟨0, _⟩ => show win0_5.index t (0 : Fin 2) * 2048 + 1 * p.val = t.val * 2048 + p.val; rw [e0]; omega
  | ⟨1, _⟩ => show win0_5.index t (1 : Fin 2) * 128 + 1 * k.val = k.val; rw [e1]; omega

theorem rows_emb_6 (t : Fin cfg0.N) (p : Fin 2048) (k : Fin 128) :
    ((cfg0.win 6).blk t).view.emb (ix2 p k) = ix2 (rowOf t p) k := by
  obtain ⟨e0, e1⟩ := row_index_6 t
  funext a; apply Fin.ext
  match a with
  | ⟨0, _⟩ => show win0_6.index t (0 : Fin 2) * 2048 + 1 * p.val = t.val * 2048 + p.val; rw [e0]; omega
  | ⟨1, _⟩ => show win0_6.index t (1 : Fin 2) * 128 + 1 * k.val = k.val; rw [e1]; omega

/-- The five input blocks at point `t`, at their literal shapes. -/
def xBlock (c : Dev nD) (t : Fin cfg0.N) : Vec Ideal S2048x128 .f32 := blockAt m c 0 t
def hBlock (c : Dev nD) (t : Fin cfg0.N) : Vec Ideal S2048x128 .f32 := blockAt m c 1 t
def cBlock (c : Dev nD) (t : Fin cfg0.N) : Vec Ideal S2048x128 .f32 := blockAt m c 2 t
def wuBlock (c : Dev nD) (t : Fin cfg0.N) : Vec Ideal S256x512 .bf16 := blockAt m c 3 t
def biasBlock (c : Dev nD) (t : Fin cfg0.N) : Vec Ideal S1x512 .f32 := blockAt m c 4 t

theorem read_x (c : Dev nD) (t : Fin cfg0.N) (p : Fin 2048) (k : Fin 128) :
    xBlock m c t (ix2 p k) = (args m c).x (ix2 (rowOf t p) k) := by
  show entry m c main_arg0 (((cfg0.win 0).blk t).view.emb (ix2 p k)) = m ((c : Thread nD τ).loc main_arg0) (ix2 (rowOf t p) k)
  rw [rows_emb_0, entry_x]
theorem read_h (c : Dev nD) (t : Fin cfg0.N) (p : Fin 2048) (k : Fin 128) :
    hBlock m c t (ix2 p k) = (args m c).h (ix2 (rowOf t p) k) := by
  show entry m c main_arg1 (((cfg0.win 1).blk t).view.emb (ix2 p k)) = m ((c : Thread nD τ).loc main_arg1) (ix2 (rowOf t p) k)
  rw [rows_emb_1, entry_h]
theorem read_c (c : Dev nD) (t : Fin cfg0.N) (p : Fin 2048) (k : Fin 128) :
    cBlock m c t (ix2 p k) = (args m c).c (ix2 (rowOf t p) k) := by
  show entry m c main_arg2 (((cfg0.win 2).blk t).view.emb (ix2 p k)) = m ((c : Thread nD τ).loc main_arg2) (ix2 (rowOf t p) k)
  rw [rows_emb_2, entry_c]

theorem read_wu (c : Dev nD) (t : Fin cfg0.N) (a : Fin 256) (q : Fin 512) :
    wuBlock m c t (ix2 a q) = (entry m c main_v3 : S256x512.Idx → EReal) (ix2 a q) := by
  obtain ⟨e0, e1⟩ := whole_index_3 t
  show (entry m c main_v3 : S256x512.Idx → EReal) (((cfg0.win 3).blk t).view.emb (ix2 a q)) = _
  refine congrArg (entry m c main_v3 : S256x512.Idx → EReal) ?_
  funext d; apply Fin.ext
  match d with
  | ⟨0, _⟩ => show win0_3.index t (0 : Fin 2) * 256 + 1 * a.val = a.val; rw [e0]; omega
  | ⟨1, _⟩ => show win0_3.index t (1 : Fin 2) * 512 + 1 * q.val = q.val; rw [e1]; omega
theorem read_bias (c : Dev nD) (t : Fin cfg0.N) (a : Fin 1) (q : Fin 512) :
    biasBlock m c t (ix2 a q) = (entry m c main_v5 : S1x512.Idx → EReal) (ix2 a q) := by
  obtain ⟨e0, e1⟩ := whole_index_4 t
  show (entry m c main_v5 : S1x512.Idx → EReal) (((cfg0.win 4).blk t).view.emb (ix2 a q)) = _
  refine congrArg (entry m c main_v5 : S1x512.Idx → EReal) ?_
  funext d; apply Fin.ext
  match d with
  | ⟨0, _⟩ => show win0_4.index t (0 : Fin 2) * 1 + 1 * a.val = a.val; rw [e0]; omega
  | ⟨1, _⟩ => show win0_4.index t (1 : Fin 2) * 512 + 1 * q.val = q.val; rw [e1]; omega

/-! ## A gate's pre-activation at a point is the specification's -/

theorem pre_i (c : Dev nD) (t : Fin cfg0.N) (p : Fin 2048) (j : Fin 128) :
    fusedPre (xBlock m c t) (hBlock m c t) (wuBlock m c t) (biasBlock m c t) p ⟨0 + j.val, by omega⟩
      = pre (args m c).x (args m c).h (args m c).Wi (args m c).Ui (args m c).bi (rowOf t p) j := by
  unfold fusedPre pre
  refine congrArg₂ (· + ·) (congrArg₂ (· + ·) (Finset.sum_congr rfl fun k _ => ?_) (Finset.sum_congr rfl fun k _ => ?_)) ?_
  · exact congrArg₂ (· * ·) (read_x m c t p k) ((read_wu m c t _ _).trans (wu_upper_i m c k j))
  · exact congrArg₂ (· * ·) (read_h m c t p k) ((read_wu m c t _ _).trans (wu_lower_i m c k j))
  · exact (read_bias m c t _ _).trans (bias_i m c j)

theorem pre_f (c : Dev nD) (t : Fin cfg0.N) (p : Fin 2048) (j : Fin 128) :
    fusedPre (xBlock m c t) (hBlock m c t) (wuBlock m c t) (biasBlock m c t) p ⟨128 + j.val, by omega⟩
      = pre (args m c).x (args m c).h (args m c).Wf (args m c).Uf (args m c).bf (rowOf t p) j := by
  unfold fusedPre pre
  refine congrArg₂ (· + ·) (congrArg₂ (· + ·) (Finset.sum_congr rfl fun k _ => ?_) (Finset.sum_congr rfl fun k _ => ?_)) ?_
  · exact congrArg₂ (· * ·) (read_x m c t p k) ((read_wu m c t _ _).trans (wu_upper_f m c k j))
  · exact congrArg₂ (· * ·) (read_h m c t p k) ((read_wu m c t _ _).trans (wu_lower_f m c k j))
  · exact (read_bias m c t _ _).trans (bias_f m c j)

theorem pre_g (c : Dev nD) (t : Fin cfg0.N) (p : Fin 2048) (j : Fin 128) :
    fusedPre (xBlock m c t) (hBlock m c t) (wuBlock m c t) (biasBlock m c t) p ⟨256 + j.val, by omega⟩
      = pre (args m c).x (args m c).h (args m c).Wg (args m c).Ug (args m c).bg (rowOf t p) j := by
  unfold fusedPre pre
  refine congrArg₂ (· + ·) (congrArg₂ (· + ·) (Finset.sum_congr rfl fun k _ => ?_) (Finset.sum_congr rfl fun k _ => ?_)) ?_
  · exact congrArg₂ (· * ·) (read_x m c t p k) ((read_wu m c t _ _).trans (wu_upper_g m c k j))
  · exact congrArg₂ (· * ·) (read_h m c t p k) ((read_wu m c t _ _).trans (wu_lower_g m c k j))
  · exact (read_bias m c t _ _).trans (bias_g m c j)

theorem pre_o (c : Dev nD) (t : Fin cfg0.N) (p : Fin 2048) (j : Fin 128) :
    fusedPre (xBlock m c t) (hBlock m c t) (wuBlock m c t) (biasBlock m c t) p ⟨384 + j.val, by omega⟩
      = pre (args m c).x (args m c).h (args m c).Wo (args m c).Uo (args m c).bo (rowOf t p) j := by
  unfold fusedPre pre
  refine congrArg₂ (· + ·) (congrArg₂ (· + ·) (Finset.sum_congr rfl fun k _ => ?_) (Finset.sum_congr rfl fun k _ => ?_)) ?_
  · exact congrArg₂ (· * ·) (read_x m c t p k) ((read_wu m c t _ _).trans (wu_upper_o m c k j))
  · exact congrArg₂ (· * ·) (read_h m c t p k) ((read_wu m c t _ _).trans (wu_lower_o m c k j))
  · exact (read_bias m c t _ _).trans (bias_o m c j)

/-- What point `t` leaves at local row `p` of the cell-state block is the specification's new cell state at row 2048·t + p. -/
theorem cell_at (c : Dev nD) (t : Fin cfg0.N) (p : Fin 2048) (j : Fin 128) :
    k0_pay2 (F := Ideal) (xBlock m c t) (hBlock m c t) (cBlock m c t) (wuBlock m c t) (biasBlock m c t) (ix2 p j)
      = newC (args m c) (rowOf t p) j := by
  rw [pay2_at, pre_f, pre_i, pre_g, read_c]
  rfl

/-- And at the hidden-state block, the specification's new hidden state. -/
theorem hidden_at (c : Dev nD) (t : Fin cfg0.N) (p : Fin 2048) (j : Fin 128) :
    k0_pay3 (F := Ideal) (xBlock m c t) (hBlock m c t) (cBlock m c t) (wuBlock m c t) (biasBlock m c t) (ix2 p j)
      = newH (args m c) (rowOf t p) j := by
  rw [pay3_at, pre_o, cell_at]
  rfl

/-! ## From blocks to arrays -/

theorem origin : (![0, 0] : Fin 2 → Nat) = fun _ => 0 := funext fun a => by fin_cases a <;> rfl

/-- One store through the whole box leaves its payload; a load through the whole box reads the buffer. -/
theorem leftH_eq (x h cp : Vec Ideal S2048x128 .f32) (wu : Vec Ideal S256x512 .bf16) (b : Vec Ideal S1x512 .f32) :
    leftH x h cp wu b = k0_pay3 (F := Ideal) x h cp wu b := by
  unfold leftH
  rw [View.canon_unit_zero origin]
  simp only [View.ld_unit_zero (S := S2048x128) origin, View.ld_unit_zero (S := S256x512) origin, View.ld_unit_zero (S := S1x512) origin]
theorem leftC_eq (x h cp : Vec Ideal S2048x128 .f32) (wu : Vec Ideal S256x512 .bf16) (b : Vec Ideal S1x512 .f32) :
    leftC x h cp wu b = k0_pay2 (F := Ideal) x h cp wu b := by
  unfold leftC
  rw [View.canon_unit_zero origin]
  simp only [View.ld_unit_zero (S := S2048x128) origin, View.ld_unit_zero (S := S256x512) origin, View.ld_unit_zero (S := S1x512) origin]

/-- What point `t` writes back to the hidden-state array is block `t` of the specification's array. -/
theorem flushed_hidden (c : Dev nD) (t : Fin cfg0.N) :
    (dats m 0 c).flushed 5 t = ((cfg0.win 5).blk t).view.read (Elt Ideal) (hiddenArray (args m c)) := by
  show (cfg0.win 5).cut (grid0.coords t) ((dats m 0 c).after 5 t) = _
  rw [after_5, leftH_eq]
  funext y
  obtain ⟨p, j, rfl⟩ : ∃ (p : Fin 2048) (j : Fin 128), y = ix2 p j := ⟨y 0, y 1, eq_ix2 y⟩
  show k0_pay3 (F := Ideal) (xBlock m c t) (hBlock m c t) (cBlock m c t) (wuBlock m c t) (biasBlock m c t) (ix2 p j)
    = hiddenArray (args m c) (((cfg0.win 5).blk t).view.emb (ix2 p j))
  rw [rows_emb_5, hiddenArray_apply]
  exact hidden_at m c t p j

/-- And to the cell-state array. -/
theorem flushed_cell (c : Dev nD) (t : Fin cfg0.N) :
    (dats m 0 c).flushed 6 t = ((cfg0.win 6).blk t).view.read (Elt Ideal) (cellArray (args m c)) := by
  show (cfg0.win 6).cut (grid0.coords t) ((dats m 0 c).after 6 t) = _
  rw [after_6, leftC_eq]
  funext y
  obtain ⟨p, j, rfl⟩ : ∃ (p : Fin 2048) (j : Fin 128), y = ix2 p j := ⟨y 0, y 1, eq_ix2 y⟩
  show k0_pay2 (F := Ideal) (xBlock m c t) (hBlock m c t) (cBlock m c t) (wuBlock m c t) (biasBlock m c t) (ix2 p j)
    = cellArray (args m c) (((cfg0.win 6).blk t).view.emb (ix2 p j))
  rw [rows_emb_6, cellArray_apply]
  exact cell_at m c t p j

/-- An index of the result array lies in point `t`'s block iff each coordinate lies in the block's range. -/
theorem mem_block_5 (t : Fin cfg0.N) (i : S131072x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v6_0).slice (win0_5.rect t)).set ↔ _
  rw [View.set_slice_whole, Rect.mem_set_unit]
  exact Iff.rfl

/-- The 64 blocks of 2048 rows tile the 131072 rows: row `r` lies in block `r / 2048`. -/
theorem covered_5 (i : S131072x128.Idx) :
    ∃ t : Fin cfg0.N, (cfg0.win 5).flush t = true ∧ i ∈ ((cfg0.win 5).blk t).view.set := by
  have hi0 : (i 0).val < 131072 := idx2_lt0 i
  have hi1 : (i 1).val < 128 := idx2_lt1 i
  refine ⟨⟨(i 0).val / 2048, lt_of_lt_of_eq (by omega) N_0.symm⟩, flush0_5 _, ?_⟩
  rw [mem_block_5]
  obtain ⟨e0, e1⟩ := row_index_5 ⟨(i 0).val / 2048, lt_of_lt_of_eq (by omega) N_0.symm⟩
  intro a
  match a with
  | ⟨0, _⟩ =>
    show win0_5.index _ (0 : Fin 2) * 2048 ≤ (i 0).val ∧ (i 0).val < win0_5.index _ (0 : Fin 2) * 2048 + 2048
    rw [e0]; show (i 0).val / 2048 * 2048 ≤ (i 0).val ∧ (i 0).val < (i 0).val / 2048 * 2048 + 2048; omega
  | ⟨1, _⟩ =>
    show win0_5.index _ (1 : Fin 2) * 128 ≤ (i 1).val ∧ (i 1).val < win0_5.index _ (1 : Fin 2) * 128 + 128
    rw [e1]; omega

/-- An index of the result array lies in point `t`'s block iff each coordinate lies in the block's range. -/
theorem mem_block_6 (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v6_1).slice (win0_6.rect t)).set ↔ _
  rw [View.set_slice_whole, Rect.mem_set_unit]
  exact Iff.rfl

/-- The 64 blocks of 2048 rows tile the 131072 rows: row `r` lies in block `r / 2048`. -/
theorem covered_6 (i : S131072x128.Idx) :
    ∃ t : Fin cfg0.N, (cfg0.win 6).flush t = true ∧ i ∈ ((cfg0.win 6).blk t).view.set := by
  have hi0 : (i 0).val < 131072 := idx2_lt0 i
  have hi1 : (i 1).val < 128 := idx2_lt1 i
  refine ⟨⟨(i 0).val / 2048, lt_of_lt_of_eq (by omega) N_0.symm⟩, flush0_6 _, ?_⟩
  rw [mem_block_6]
  obtain ⟨e0, e1⟩ := row_index_6 ⟨(i 0).val / 2048, lt_of_lt_of_eq (by omega) N_0.symm⟩
  intro a
  match a with
  | ⟨0, _⟩ =>
    show win0_6.index _ (0 : Fin 2) * 2048 ≤ (i 0).val ∧ (i 0).val < win0_6.index _ (0 : Fin 2) * 2048 + 2048
    rw [e0]; show (i 0).val / 2048 * 2048 ≤ (i 0).val ∧ (i 0).val < (i 0).val / 2048 * 2048 + 2048; omega
  | ⟨1, _⟩ =>
    show win0_6.index _ (1 : Fin 2) * 128 ≤ (i 1).val ∧ (i 1).val < win0_6.index _ (1 : Fin 2) * 128 + 128
    rw [e1]; omega

/-- The hidden-state array after the run. -/
theorem final_hidden (c : Dev nD) : (dats m 0 c).arrAt 5 cfg0.N = hiddenArray (args m c) :=
  (dats m 0 c).arrAt_eq_of_cover 5 (hiddenArray (args m c)) (fun t _ => flushed_hidden m c t) covered_5

/-- The cell-state array after the run. -/
theorem final_cell (c : Dev nD) : (dats m 0 c).arrAt 6 cfg0.N = cellArray (args m c) :=
  (dats m 0 c).arrAt_eq_of_cover 6 (cellArray (args m c)) (fun t _ => flushed_cell m c t) covered_6

end Cert.KernelIdeal.CellValue

end
-- ==== Proof.RefValue.lean ====
/-
  The reference computes the LSTM cell of the specification, entry by entry.

  Each gate's pre-activation is two host matrix products (each a sum over 128 terms at an entry), their sum, and
  the bias row added; the reference spells the sigmoid as 1 / (1 + exp (−s)), which is the extended reals' logistic
  function by definition (the literal 1.0 is the real one); the hyperbolic tangent on the host is the same function
  as in the specification.
-/
import proofs.«106874_j47399259079383_2_alg».proof.Proof.Gen.ReferenceIdeal.Read
import proofs.«106874_j47399259079383_2_alg».proof.Proof.Spec
import Idealize.ShloMosaic.Lib.IdealHost

noncomputable section

namespace Cert.ReferenceIdeal.RefCell

open Cert.ReferenceIdeal Cert.ReferenceIdeal.Gen Cert.ReferenceIdeal.Read Cert.LstmSpec
open Idealize.ShloMosaic Idealize.ShloMosaic.ValueIdx

/-- The sigmoid as the reference spells it: one over one plus the exponential of the negation. -/
theorem sigmoid_spelt (s : EReal) :
    FloatOps.hostDivf (F := Ideal) (φ := .f32) (FloatOps.ofBits .f32 0x3F800000#32)
      (FloatOps.addf (FloatOps.ofBits .f32 0x3F800000#32) (FloatOps.hostUnary .exp (FloatOps.hostNegf s))) = Ideal.logistic s := by
  show Ideal.div (Ideal.ofBits .f32 0x3F800000#32) (Ideal.ofBits .f32 0x3F800000#32 + Ideal.exp (-s)) = Ideal.div 1 (1 + Ideal.exp (-s))
  rw [Ideal.ofBits_one_f32]

/-- The i gate's pre-activation, as the reference computes it (two products, their sum, the bias row broadcast and added). -/
theorem pre_i (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v5 (F := Ideal) x0 x1 W U bb (ix2 r j) = pre x0 x1 W U bb r j := by
  rw [val_main_v5_apply, val_main_v2_apply, val_main_v0_apply, val_main_v1_apply, val_main_v4_apply, val_main_v3_apply]
  have l0 : ∀ k, lidx_main_v0 (ix2 r j) k = ix2 r k := fun k => funext fun a => by
    match a with | ⟨0, _⟩ => rfl | ⟨1, _⟩ => rfl
  have r0 : ∀ k, ridx_main_v0 (ix2 r j) k = ix2 k j := fun k => funext fun a => by
    match a with | ⟨0, _⟩ => rfl | ⟨1, _⟩ => rfl
  have l1 : ∀ k, lidx_main_v1 (ix2 r j) k = ix2 r k := fun k => funext fun a => by
    match a with | ⟨0, _⟩ => rfl | ⟨1, _⟩ => rfl
  have r1 : ∀ k, ridx_main_v1 (ix2 r j) k = ix2 k j := fun k => funext fun a => by
    match a with | ⟨0, _⟩ => rfl | ⟨1, _⟩ => rfl
  have bi : idx_main_v3 (idx_main_v4 (ix2 r j)) = ix1 j := funext fun a => by
    match a with | ⟨0, _⟩ => rfl
  simp only [l0, r0, l1, r1, bi]
  rfl

/-- The f gate's pre-activation, as the reference computes it (two products, their sum, the bias row broadcast and added). -/
theorem pre_f (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v17 (F := Ideal) x0 x1 W U bb (ix2 r j) = pre x0 x1 W U bb r j := by
  rw [val_main_v17_apply, val_main_v14_apply, val_main_v12_apply, val_main_v13_apply, val_main_v16_apply, val_main_v15_apply]
  have l0 : ∀ k, lidx_main_v12 (ix2 r j) k = ix2 r k := fun k => funext fun a => by
    match a with | ⟨0, _⟩ => rfl | ⟨1, _⟩ => rfl
  have r0 : ∀ k, ridx_main_v12 (ix2 r j) k = ix2 k j := fun k => funext fun a => by
    match a with | ⟨0, _⟩ => rfl | ⟨1, _⟩ => rfl
  have l1 : ∀ k, lidx_main_v13 (ix2 r j) k = ix2 r k := fun k => funext fun a => by
    match a with | ⟨0, _⟩ => rfl | ⟨1, _⟩ => rfl
  have r1 : ∀ k, ridx_main_v13 (ix2 r j) k = ix2 k j := fun k => funext fun a => by
    match a with | ⟨0, _⟩ => rfl | ⟨1, _⟩ => rfl
  have bi : idx_main_v15 (idx_main_v16 (ix2 r j)) = ix1 j := funext fun a => by
    match a with | ⟨0, _⟩ => rfl
  simp only [l0, r0, l1, r1, bi]
  rfl

/-- The o gate's pre-activation, as the reference computes it (two products, their sum, the bias row broadcast and added). -/
theorem pre_o (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v29 (F := Ideal) x0 x1 W U bb (ix2 r j) = pre x0 x1 W U bb r j := by
  rw [val_main_v29_apply, val_main_v26_apply, val_main_v24_apply, val_main_v25_apply, val_main_v28_apply, val_main_v27_apply]
  have l0 : ∀ k, lidx_main_v24 (ix2 r j) k = ix2 r k := fun k => funext fun a => by
    match a with | ⟨0, _⟩ => rfl | ⟨1, _⟩ => rfl
  have r0 : ∀ k, ridx_main_v24 (ix2 r j) k = ix2 k j := fun k => funext fun a => by
    match a with | ⟨0, _⟩ => rfl | ⟨1, _⟩ => rfl
  have l1 : ∀ k, lidx_main_v25 (ix2 r j) k = ix2 r k := fun k => funext fun a => by
    match a with | ⟨0, _⟩ => rfl | ⟨1, _⟩ => rfl
  have r1 : ∀ k, ridx_main_v25 (ix2 r j) k = ix2 k j := fun k => funext fun a => by
    match a with | ⟨0, _⟩ => rfl | ⟨1, _⟩ => rfl
  have bi : idx_main_v27 (idx_main_v28 (ix2 r j)) = ix1 j := funext fun a => by
    match a with | ⟨0, _⟩ => rfl
  simp only [l0, r0, l1, r1, bi]
  rfl

/-- The g gate's pre-activation, as the reference computes it (two products, their sum, the bias row broadcast and added). -/
theorem pre_g (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v41 (F := Ideal) x0 x1 W U bb (ix2 r j) = pre x0 x1 W U bb r j := by
  rw [val_main_v41_apply, val_main_v38_apply, val_main_v36_apply, val_main_v37_apply, val_main_v40_apply, val_main_v39_apply]
  have l0 : ∀ k, lidx_main_v36 (ix2 r j) k = ix2 r k := fun k => funext fun a => by
    match a with | ⟨0, _⟩ => rfl | ⟨1, _⟩ => rfl
  have r0 : ∀ k, ridx_main_v36 (ix2 r j) k = ix2 k j := fun k => funext fun a => by
    match a with | ⟨0, _⟩ => rfl | ⟨1, _⟩ => rfl
  have l1 : ∀ k, lidx_main_v37 (ix2 r j) k = ix2 r k := fun k => funext fun a => by
    match a with | ⟨0, _⟩ => rfl | ⟨1, _⟩ => rfl
  have r1 : ∀ k, ridx_main_v37 (ix2 r j) k = ix2 k j := fun k => funext fun a => by
    match a with | ⟨0, _⟩ => rfl | ⟨1, _⟩ => rfl
  have bi : idx_main_v39 (idx_main_v40 (ix2 r j)) = ix1 j := funext fun a => by
    match a with | ⟨0, _⟩ => rfl
  simp only [l0, r0, l1, r1, bi]
  rfl

/-- The i gate: the reference's 1 / (1 + exp (−s)) of the pre-activation. -/
theorem gate_i (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v11 (F := Ideal) x0 x1 W U bb (ix2 r j) = Ideal.logistic (pre x0 x1 W U bb r j) := by
  rw [val_main_v11_apply, val_main_v10_apply, val_main_cst_0_apply, val_main_v9_apply, val_main_v8_apply,
    val_main_cst_apply, val_main_v7_apply, val_main_v6_apply, pre_i]
  exact sigmoid_spelt _

/-- The f gate: the reference's 1 / (1 + exp (−s)) of the pre-activation. -/
theorem gate_f (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v23 (F := Ideal) x0 x1 W U bb (ix2 r j) = Ideal.logistic (pre x0 x1 W U bb r j) := by
  rw [val_main_v23_apply, val_main_v22_apply, val_main_cst_2_apply, val_main_v21_apply, val_main_v20_apply,
    val_main_cst_1_apply, val_main_v19_apply, val_main_v18_apply, pre_f]
  exact sigmoid_spelt _

/-- The o gate: the reference's 1 / (1 + exp (−s)) of the pre-activation. -/
theorem gate_o (x0 x1 : (⟨S131072x128, .f32⟩ : BufTy).Contents (Elt Ideal)) (W U : (⟨S128x128, .f32⟩ : BufTy).Contents (Elt Ideal)) (bb : (⟨S128, .f32⟩ : BufTy).Contents (Elt Ideal)) (r : Fin 131072) (j : Fin 128) :
    val_main_v35 (F := Ideal) x0 x1 W U bb (ix2 r j) = Ideal.logistic (pre x0 x1 W U bb r j) := by
  rw [val_main_v35_apply, val_main_v34_apply, val_main_cst_4_apply, val_main_v33_apply, val_main_v32_apply,
    val_main_cst_3_apply, val_main_v31_apply, val_main_v30_apply, pre_o]
  exact sigmoid_spelt _

/-- The reference's second result is the new cell state. -/
theorem cell_eq (A : Args) :
    val_main_v45 (F := Ideal) A.x A.h A.c A.Wi A.Ui A.bi A.Wf A.Uf A.bf A.Wg A.Ug A.bg = cellArray A := by
  funext i
  obtain ⟨r, j, rfl⟩ : ∃ (r : Fin 131072) (j : Fin 128), i = ix2 r j := ⟨i 0, i 1, eq_ix2 i⟩
  rw [val_main_v45_apply, val_main_v43_apply, val_main_v44_apply, val_main_v42_apply, gate_f, gate_i, pre_g, cellArray_apply]
  rfl

/-- The reference's first result is the new hidden state. -/
theorem hidden_eq (A : Args) :
    val_main_v47 (F := Ideal) A.x A.h A.c A.Wi A.Ui A.bi A.Wf A.Uf A.bf A.Wg A.Ug A.bg A.Wo A.Uo A.bo = hiddenArray A := by
  funext i
  obtain ⟨r, j, rfl⟩ : ∃ (r : Fin 131072) (j : Fin 128), i = ix2 r j := ⟨i 0, i 1, eq_ix2 i⟩
  rw [val_main_v47_apply, val_main_v46_apply, gate_o, congrFun (cell_eq A) (ix2 r j), cellArray_apply, hiddenArray_apply]
  rfl

end Cert.ReferenceIdeal.RefCell

end
-- ==== Proof.lean ====
/-
  The certificate of the LSTM cell: a fused Pallas kernel against the per-gate jnp reference.

  The kernel lays the eight 128 × 128 weight matrices out as one 256 × 512 matrix (input-side over hidden-side, the
  four gates side by side) and the four bias rows as one 1 × 512 row, and at each of 64 grid points multiplies 2048
  rows of [x | h] by the fused matrix, adds the bias, and applies the gates.  The reference forms, per gate,
  x·W + h·U + b.  On the extended reals the two agree entry by entry: a change of float format is the identity, the
  fused product's sum over 256 terms is the sum of its two halves (which holds in every commutative monoid, so the
  precondition is not used), the kernel's logistic is by definition the reference's 1 / (1 + exp (−s)), and tanh is
  one function on both sides.

  The three frames: each kernel program's run is the pipeline's run of its one region after the host operations that
  build the fused operands (module RegionBits for the word-level program, RegionIdeal for the idealized one); the
  reference's is its straight-line run.  The idealization rewrote nothing, so `preserves` is trivial.
-/
import proofs.«106874_j47399259079383_2_alg».proof.Defs
import proofs.«106874_j47399259079383_2_alg».proof.Proof.Gen.Kernel
import proofs.«106874_j47399259079383_2_alg».proof.Proof.Gen.KernelIdeal
import proofs.«106874_j47399259079383_2_alg».proof.Proof.Gen.ReferenceIdeal
import proofs.«106874_j47399259079383_2_alg».proof.Proof.Gen.Pre_finite_inputs
import proofs.«106874_j47399259079383_2_alg».proof.Proof.Gen.ReferenceIdeal.Run
import proofs.«106874_j47399259079383_2_alg».proof.Proof.Gen.ReferenceIdeal.Read
import proofs.«106874_j47399259079383_2_alg».proof.Proof.RegionBits
import proofs.«106874_j47399259079383_2_alg».proof.Proof.RegionIdeal
import proofs.«106874_j47399259079383_2_alg».proof.Proof.KernelValue
import proofs.«106874_j47399259079383_2_alg».proof.Proof.RefValue

noncomputable section

namespace Cert.Proof

open Idealize.ShloMosaic Idealize.SL.Sem Cert.LstmSpec

theorem frame_kernel : Cert.frame_Kernel := fun m ρ _ => Cert.Kernel.Cell.frame (F := Bits) m ρ

theorem frame_ideal : Cert.frame_KernelIdeal := fun m ρ _ => Cert.KernelIdeal.Cell.frame (F := Ideal) m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the specification's hidden-state and cell-state arrays of the (agreeing) arguments. -/
theorem algebraic : Cert.algebraic_KernelIdeal_ReferenceIdeal := by
  intro m ρ m' ρ' _ hagree
  refine ⟨fun c => hiddenArray (Cert.KernelIdeal.CellValue.args m c), fun c => cellArray (Cert.KernelIdeal.CellValue.args m c), ?_, ?_⟩
  · refine (θ_run Cert.KernelIdeal.defs _ _).mono (fun r h c => ?_) (Cert.KernelIdeal.Cell.run_named (F := Ideal) m ρ)
    exact ⟨((h c).1.1).trans (Cert.KernelIdeal.CellValue.final_hidden m c),
      ((h c).1.2).trans (Cert.KernelIdeal.CellValue.final_cell m c), (h c).2⟩
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14⟩ := hagree c
    refine ⟨(h c).1.trans ?_, (h c).2.1.trans ?_, (h c).2.2⟩
    · rw [Cert.ReferenceIdeal.Read.val_main_v47_eq, a0, a1, a2, a3, a4, a5, a6, a7, a8, a9, a10, a11, a12, a13, a14]
      exact Cert.ReferenceIdeal.RefCell.hidden_eq (Cert.KernelIdeal.CellValue.args m c)
    · rw [Cert.ReferenceIdeal.Read.val_main_v45_eq, a0, a1, a2, a3, a4, a5, a6, a7, a8, a9, a10, a11]
      exact Cert.ReferenceIdeal.RefCell.cell_eq (Cert.KernelIdeal.CellValue.args m c)

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
